-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S256x10 .f32) (main_arg10 : FVec F S10 .f32) (main_v33 : IVec S_ 1) : IVec S_ 1 :=
  let main_v34 : FVec F S256x10 .f32 := Host.absf main_arg9
  let main_cst_12 : FVec F S_ .f32 := constant S_ .f32 0x7F800000#32
  let main_v35 : FVec F S256x10 .f32 := broadcastInDim S256x10 ![] bcast_S_S256x10 main_cst_12
  let main_v36 : IVec S256x10 1 := cmpf .olt main_v34 main_v35
  let main_c_13 : IVec S_ 1 := constantI S_ 1 1#1
  let main_v37 : IVec S_ 1 := (fun x v => Host.reduce IntOp.andi x v reducesTo_S256x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x10 .f32) (main_arg10 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x256 .f32) (main_arg1 : IVec S2x800000 32) (main_arg2 : IVec S50000 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x10 .f32) (main_arg10 : FVec F S10 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x10 : Shape := ⟨2, ![256, 10]⟩
abbrev S10 : Shape := ⟨1, ![10]⟩
abbrev S5000x256 : Shape := ⟨2, ![5000, 256]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 207
  | .vmem => 17
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x10, .f32⟩
  | 10 => ⟨S10, .f32⟩
  | 11 => ⟨S50000x256, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S50000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S_, .f32⟩
  | 30 => ⟨S850000, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x256, .f32⟩
  | 61 => ⟨S850000x1, .f32⟩
  | 62 => ⟨S850000x256, .f32⟩
  | 63 => ⟨S850000x256, .f32⟩
  | 64 => ⟨S_, .f32⟩
  | 65 => ⟨S50000x256, .f32⟩
  | 66 => ⟨S850000x1, .i32⟩
  | 67 => ⟨S50000x256, .f32⟩
  | 68 => ⟨S1x256, .f32⟩
  | 69 => ⟨S50000x256, .f32⟩
  | 70 => ⟨S50000, .i32⟩
  | 71 => ⟨S1x800000, .i32⟩
  | 72 => ⟨S800000, .i32⟩
  | 73 => ⟨S850000, .i32⟩
  | 74 => ⟨S1x800000, .i32⟩
  | 75 => ⟨S800000, .i32⟩
  | 76 => ⟨S850000, .i32⟩
  | 77 => ⟨S_, .f32⟩
  | 78 => ⟨S50000, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S_, .f32⟩
  | 88 => ⟨S850000, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x256, .f32⟩
  | 119 => ⟨S850000x1, .f32⟩
  | 120 => ⟨S850000x256, .f32⟩
  | 121 => ⟨S850000x256, .f32⟩
  | 122 => ⟨S_, .f32⟩
  | 123 => ⟨S50000x256, .f32⟩
  | 124 => ⟨S850000x1, .i32⟩
  | 125 => ⟨S50000x256, .f32⟩
  | 126 => ⟨S1x256, .f32⟩
  | 127 => ⟨S50000x256, .f32⟩
  | _ => ⟨S50000x256, .f32⟩

abbrev hbmTy0_1 (i : Nat) : BufTy := match i % 128 with
  | 0 => ⟨S50000, .i32⟩
  | 1 => ⟨S1x800000, .i32⟩
  | 2 => ⟨S800000, .i32⟩
  | 3 => ⟨S850000, .i32⟩
  | 4 => ⟨S1x800000, .i32⟩
  | 5 => ⟨S800000, .i32⟩
  | 6 => ⟨S850000, .i32⟩
  | 7 => ⟨S_, .f32⟩
  | 8 => ⟨S50000, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S_, .f32⟩
  | 18 => ⟨S850000, .f32⟩
  | 19 => ⟨S50000, .f32⟩
  | 20 => ⟨S50000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000x256, .f32⟩
  | 49 => ⟨S850000x1, .f32⟩
  | 50 => ⟨S850000x256, .f32⟩
  | 51 => ⟨S850000x256, .f32⟩
  | 52 => ⟨S_, .f32⟩
  | 53 => ⟨S50000x256, .f32⟩
  | 54 => ⟨S850000x1, .i32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S64x256, .f32⟩
  | 61 => ⟨S50000x1, .i32⟩
  | 62 => ⟨S64x256, .f32⟩
  | 63 => ⟨S_, .f32⟩
  | 64 => ⟨S50000, .f32⟩
  | 65 => ⟨S_, .f32⟩
  | 66 => ⟨S64, .f32⟩
  | 67 => ⟨S50000x1, .i32⟩
  | 68 => ⟨S64, .f32⟩
  | 69 => ⟨S_, .f32⟩
  | 70 => ⟨S64, .f32⟩
  | 71 => ⟨S64, .f32⟩
  | 72 => ⟨S64x1, .f32⟩
  | 73 => ⟨S64x256, .f32⟩
  | 74 => ⟨S64x256, .f32⟩
  | 75 => ⟨S64x10, .f32⟩
  | 76 => ⟨S1x10, .f32⟩
  | 77 => ⟨S64x10, .f32⟩
  | 78 => ⟨S64x10, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S256x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S1x256, .f32⟩
  | .local _ .vmem, ⟨14, _⟩ => ⟨S256x256, .f32⟩
  | .local _ .vmem, ⟨15, _⟩ => ⟨S5000x256, .f32⟩
  | .local _ .vmem, ⟨16, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_17 : Ref sig .tc := ⟨.hbm, 110, rfl⟩
abbrev main_v80 : Ref sig .tc := ⟨.hbm, 111, rfl⟩
abbrev main_v81 : Ref sig .tc := ⟨.hbm, 112, rfl⟩
abbrev main_c_18 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_19 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_20 : Ref sig .tc := ⟨.hbm, 135, rfl⟩
abbrev main_v102 : Ref sig .tc := ⟨.hbm, 136, rfl⟩
abbrev main_c_21 : Ref sig .tc := ⟨.hbm, 137, rfl⟩
abbrev main_v103 : Ref sig .tc := ⟨.hbm, 138, rfl⟩
abbrev main_v104 : Ref sig .tc := ⟨.hbm, 139, rfl⟩
abbrev main_c_22 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_23 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_c_24 : Ref sig .tc := ⟨.hbm, 149, rfl⟩
abbrev main_v112 : Ref sig .tc := ⟨.hbm, 150, rfl⟩
abbrev main_v113 : Ref sig .tc := ⟨.hbm, 151, rfl⟩
abbrev main_c_25 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_c_26 : Ref sig .tc := ⟨.hbm, 158, rfl⟩
abbrev main_v119 : Ref sig .tc := ⟨.hbm, 159, rfl⟩
abbrev main_v120 : Ref sig .tc := ⟨.hbm, 160, rfl⟩
abbrev main_c_27 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_c_28 : Ref sig .tc := ⟨.hbm, 168, rfl⟩
abbrev main_v127 : Ref sig .tc := ⟨.hbm, 169, rfl⟩
abbrev main_v128 : Ref sig .tc := ⟨.hbm, 170, rfl⟩
abbrev main_c_29 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_30 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_31 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_32 : Ref sig .tc := ⟨.hbm, 191, rfl⟩
abbrev main_v146 : Ref sig .tc := ⟨.hbm, 192, rfl⟩
abbrev main_cst_33 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_34 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S5000x256_S256x256_S5000x256_1_0_0_1_n_n_wf : DotDims.WF S5000x256 S256x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v92) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v93) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v94) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 217
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x10, .f32⟩
  | 10 => ⟨S10, .f32⟩
  | 11 => ⟨S50000x256, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S50000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S_, .f32⟩
  | 30 => ⟨S850000, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x256, .f32⟩
  | 61 => ⟨S850000x1, .f32⟩
  | 62 => ⟨S850000x256, .f32⟩
  | 63 => ⟨S850000x256, .f32⟩
  | 64 => ⟨S_, .f32⟩
  | 65 => ⟨S50000x256, .f32⟩
  | 66 => ⟨S850000x1, .i32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x256, .f32⟩
  | 75 => ⟨S50000, .i32⟩
  | 76 => ⟨S1x800000, .i32⟩
  | 77 => ⟨S800000, .i32⟩
  | 78 => ⟨S850000, .i32⟩
  | 79 => ⟨S1x800000, .i32⟩
  | 80 => ⟨S800000, .i32⟩
  | 81 => ⟨S850000, .i32⟩
  | 82 => ⟨S_, .f32⟩
  | 83 => ⟨S50000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S_, .f32⟩
  | 93 => ⟨S850000, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x256, .f32⟩
  | 124 => ⟨S850000x1, .f32⟩
  | 125 => ⟨S850000x256, .f32⟩
  | 126 => ⟨S850000x256, .f32⟩
  | 127 => ⟨S_, .f32⟩
  | _ => ⟨S50000x256, .f32⟩

abbrev hbmTy0_1 (i : Nat) : BufTy := match i % 128 with
  | 0 => ⟨S50000x256, .f32⟩
  | 1 => ⟨S850000x1, .i32⟩
  | 2 => ⟨S50000x256, .f32⟩
  | 3 => ⟨S1x256, .f32⟩
  | 4 => ⟨S50000x256, .f32⟩
  | 5 => ⟨S50000x256, .f32⟩
  | 6 => ⟨S_, .f32⟩
  | 7 => ⟨S50000x256, .f32⟩
  | 8 => ⟨S50000x256, .f32⟩
  | 9 => ⟨S50000x256, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S50000, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S_, .f32⟩
  | 28 => ⟨S850000, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S64x256, .f32⟩
  | 71 => ⟨S50000x1, .i32⟩
  | 72 => ⟨S64x256, .f32⟩
  | 73 => ⟨S_, .f32⟩
  | 74 => ⟨S50000, .f32⟩
  | 75 => ⟨S_, .f32⟩
  | 76 => ⟨S64, .f32⟩
  | 77 => ⟨S50000x1, .i32⟩
  | 78 => ⟨S64, .f32⟩
  | 79 => ⟨S_, .f32⟩
  | 80 => ⟨S64, .f32⟩
  | 81 => ⟨S64, .f32⟩
  | 82 => ⟨S64x1, .f32⟩
  | 83 => ⟨S64x256, .f32⟩
  | 84 => ⟨S64x256, .f32⟩
  | 85 => ⟨S64x10, .f32⟩
  | 86 => ⟨S1x10, .f32⟩
  | 87 => ⟨S64x10, .f32⟩
  | 88 => ⟨S64x10, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_v83 : Ref sig .tc := ⟨.hbm, 116, rfl⟩
abbrev main_v84 : Ref sig .tc := ⟨.hbm, 117, rfl⟩
abbrev main_c_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call1_cst : Ref sig .tc := ⟨.hbm, 134, rfl⟩
abbrev main_call1_v0 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_20 : Ref sig .tc := ⟨.hbm, 145, rfl⟩
abbrev main_v108 : Ref sig .tc := ⟨.hbm, 146, rfl⟩
abbrev main_c_21 : Ref sig .tc := ⟨.hbm, 147, rfl⟩
abbrev main_v109 : Ref sig .tc := ⟨.hbm, 148, rfl⟩
abbrev main_v110 : Ref sig .tc := ⟨.hbm, 149, rfl⟩
abbrev main_c_22 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_23 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c_24 : Ref sig .tc := ⟨.hbm, 159, rfl⟩
abbrev main_v118 : Ref sig .tc := ⟨.hbm, 160, rfl⟩
abbrev main_v119 : Ref sig .tc := ⟨.hbm, 161, rfl⟩
abbrev main_c_25 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_c_26 : Ref sig .tc := ⟨.hbm, 168, rfl⟩
abbrev main_v125 : Ref sig .tc := ⟨.hbm, 169, rfl⟩
abbrev main_v126 : Ref sig .tc := ⟨.hbm, 170, rfl⟩
abbrev main_c_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_28 : Ref sig .tc := ⟨.hbm, 178, rfl⟩
abbrev main_v133 : Ref sig .tc := ⟨.hbm, 179, rfl⟩
abbrev main_v134 : Ref sig .tc := ⟨.hbm, 180, rfl⟩
abbrev main_c_29 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_30 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_31 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_32 : Ref sig .tc := ⟨.hbm, 201, rfl⟩
abbrev main_v152 : Ref sig .tc := ⟨.hbm, 202, rfl⟩
abbrev main_cst_33 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_34 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x10_S64x10_1_0_0_1_n_n_wf : DotDims.WF S64x256 S256x10 S64x10 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.GcnSpec.lean ====
/-
  The network both programs compute, as whole-array functions over any float instance.

  A graph-convolution layer on 50000 nodes with 256 features: a dense map `h ↦ h · W`, then the symmetric-normalised
  aggregation over the edge list with one self loop per node. Writing `src`, `dst` for the two rows of the edge list
  followed by `0 … 49999`, `deg v` for the number of entries of `dst` equal to `v` and `dinv = deg^(-1/2)`, the
  aggregation sends `h` to `out v = Σ_{e : dst e = v} dinv (src e) · dinv (dst e) · h (src e)`. Three such layers, a bias
  row added after each and `max(·, 0)` after the first two, then the mean of the node rows of each of 64 graphs
  (`batch` names a node's graph; an empty graph divides by 1) and a final `256 → 10` affine map.

  Nothing here is opened by the proof: the aggregation and the pooling head are the SAME host operations in both
  programs, applied to values the proof shows equal, so they are carried as the functions `aggregate` and `head`.
  The one place where the two programs differ is the dense map: the kernel computes it block of 5000 rows by block,
  as a matrix product into a zero accumulator, after adding the bias row and taking `max(·, 0)` inside the same body.
-/
import proofs.«138278_j82824149336595_1_alg».proof.ReferenceIdeal
import proofs.«138278_j82824149336595_1_alg».proof.Proof.Gen.ReferenceIdeal
import Idealize.ShloMosaic.PureOps.Ideal

noncomputable section

open Idealize.ShloMosaic

namespace Cert.Gcn

open Cert.ReferenceIdeal Cert.ReferenceIdeal.Gen

variable {F : FTy → Type} [FloatOps F]

/-- Node features: one row of 256 numbers per node. -/
abbrev Feat (F : FTy → Type) := (⟨S50000x256, .f32⟩ : BufTy).Contents (Elt F)
/-- The edge list: row 0 the sources, row 1 the destinations. -/
abbrev Edges (F : FTy → Type) := (⟨S2x800000, .i32⟩ : BufTy).Contents (Elt F)
/-- One endpoint per edge, the 50000 self loops last. -/
abbrev Ends (F : FTy → Type) := (⟨S850000, .i32⟩ : BufTy).Contents (Elt F)
/-- A bias as a one-row matrix. -/
abbrev Row (F : FTy → Type) := (⟨S1x256, .f32⟩ : BufTy).Contents (Elt F)

/-- The sources: row 0 of the edge list, then the self loops `0 … 49999`. -/
def src (e : Edges F) : Ends F :=
  concatenate S850000 0 [⟨S800000, (shapeCast _ (extractStridedSlice S1x800000 ![0, 0] (e) slices_S2x800000_S1x800000_0_0) shapeCasts_S1x800000_S800000)⟩, ⟨S50000, (iotaInDim S50000 32 0)⟩] concatenates_S800000_S50000_S850000_d0

/-- The destinations: row 1 of the edge list, then the self loops. -/
def dst (e : Edges F) : Ends F :=
  concatenate S850000 0 [⟨S800000, (shapeCast _ (extractStridedSlice S1x800000 ![1, 0] (e) slices_S2x800000_S1x800000_1_0) shapeCasts_S1x800000_S800000)⟩, ⟨S50000, (iotaInDim S50000 32 0)⟩] concatenates_S800000_S50000_S850000_d0

/-- A negative node number counts from the end: `v < 0` reads as `v + 50000`. -/
def wrap (v : Ends F) : Ends F :=
  select (cmpi .slt (v) (broadcastInDim S850000 ![] bcast_S_S850000 (constantI S_ 32 0#32 : (⟨S_, .i32⟩ : BufTy).Contents (Elt F))))
    (addi (v) (broadcastInDim S850000 ![] bcast_S_S850000 (constantI S_ 32 50000#32 : (⟨S_, .i32⟩ : BufTy).Contents (Elt F)))) (v)

/-- Node numbers as a one-column index matrix. -/
def col (v : Ends F) : (⟨S850000x1, .i32⟩ : BufTy).Contents (Elt F) :=
  broadcastInDim S850000x1 ![0] bcast_S850000_S850000x1_0 (v)

/-- `deg v`: one for every entry of `dst` (read with `wrap`) equal to `v`, summed from zero. -/
def degree (e : Edges F) : (⟨S50000, .f32⟩ : BufTy).Contents (Elt F) :=
  Host.scatterAdd scatter_S50000_S850000x1_S850000_n_0_0_1
    (broadcastInDim S50000 ![] bcast_S_S50000 (constant S_ .f32 0x00000000#32 : (⟨S_, .f32⟩ : BufTy).Contents (Elt F)))
    (col (wrap (dst e)))
    (broadcastInDim S850000 ![] bcast_S_S850000 (constant S_ .f32 0x3F800000#32 : (⟨S_, .f32⟩ : BufTy).Contents (Elt F)))

/-- `dinv v = (deg v)^(-1/2)`. -/
def dinv (e : Edges F) : (⟨S50000, .f32⟩ : BufTy).Contents (Elt F) :=
  Host.rsqrt (degree e)

/-- An edge's weight `dinv (src e) · dinv (dst e)`. -/
def coef (e : Edges F) : (⟨S850000, .f32⟩ : BufTy).Contents (Elt F) :=
  mulf (Host.gather gather_S50000_S850000x1_S850000_n_0_n_n_0_1_1 (dinv e) (col (wrap (src e))))
    (Host.gather gather_S50000_S850000x1_S850000_n_0_n_n_0_1_1 (dinv e) (col (wrap (dst e))))

/-- THE AGGREGATION: row `v` of the result is the sum, over the edges into `v`, of the source's row of `h` times the
    edge's weight, summed from zero. -/
def aggregate (h : Feat F) (e : Edges F) : Feat F :=
  Host.scatterAdd scatter_S50000x256_S850000x1_S850000x256_1_0_0_1
    (broadcastInDim S50000x256 ![] bcast_S_S50000x256 (constant S_ .f32 0x00000000#32 : (⟨S_, .f32⟩ : BufTy).Contents (Elt F)))
    (col (dst e))
    (mulf (Host.gather gather_S50000x256_S850000x1_S850000x256_1_0_n_n_0_1_1256 (h) (col (wrap (src e))))
      (broadcastInDim S850000x256 ![0, 1] bcast_S850000x1_S850000x256_0_1
        (broadcastInDim S850000x1 ![0] bcast_S850000_S850000x1_0 (coef e))))

/-- A bias vector as a one-row matrix. -/
def rowOf (b : (⟨S256, .f32⟩ : BufTy).Contents (Elt F)) : Row F :=
  broadcastInDim S1x256 ![1] bcast_S256_S1x256_1 (b)

/-- The bias row added to every node's row. -/
def addRow (a : Feat F) (r : Row F) : Feat F :=
  addf (a) (broadcastInDim S50000x256 ![0, 1] bcast_S1x256_S50000x256_0_1 (r))

/-- `max(·, 0)`, entry by entry. -/
def relu (a : Feat F) : Feat F :=
  maximumf (a) (broadcastInDim S50000x256 ![] bcast_S_S50000x256 (constant S_ .f32 0x00000000#32 : (⟨S_, .f32⟩ : BufTy).Contents (Elt F)))

/-- THE DENSE MAP `a ↦ a · w`: entry `(v, j)` is `Σ_k a (v, k) · w (k, j)`. -/
def dense (a : Feat F) (w : (⟨S256x256, .f32⟩ : BufTy).Contents (Elt F)) : Feat F :=
  Host.dotGeneral dot_S50000x256_S256x256_S50000x256_1_0_0_1_n_n none (a) (w)

/-- THE POOLING HEAD: the rows of `a` summed per graph, divided by the graph's node count (at least 1), times `wl`,
    plus `bl`. -/
def head (a : Feat F) (batch : (⟨S50000, .i32⟩ : BufTy).Contents (Elt F)) (wl : (⟨S256x10, .f32⟩ : BufTy).Contents (Elt F))
    (bl : (⟨S10, .f32⟩ : BufTy).Contents (Elt F)) : (⟨S64x10, .f32⟩ : BufTy).Contents (Elt F) :=
  addf (Host.dotGeneral dot_S64x256_S256x10_S64x10_1_0_0_1_n_n none
      (Host.divf
        (Host.scatterAdd scatter_S64x256_S50000x1_S50000x256_1_0_0_1
          (broadcastInDim S64x256 ![] bcast_S_S64x256 (constant S_ .f32 0x00000000#32 : (⟨S_, .f32⟩ : BufTy).Contents (Elt F)))
          (broadcastInDim S50000x1 ![0] bcast_S50000_S50000x1_0 (batch)) (a))
        (broadcastInDim S64x256 ![0, 1] bcast_S64x1_S64x256_0_1
          (broadcastInDim S64x1 ![0] bcast_S64_S64x1_0
            (maximumf
              (Host.scatterAdd scatter_S64_S50000x1_S50000_n_0_0_1
                (broadcastInDim S64 ![] bcast_S_S64 (constant S_ .f32 0x00000000#32 : (⟨S_, .f32⟩ : BufTy).Contents (Elt F)))
                (broadcastInDim S50000x1 ![0] bcast_S50000_S50000x1_0 (batch))
                (broadcastInDim S50000 ![] bcast_S_S50000 (constant S_ .f32 0x3F800000#32 : (⟨S_, .f32⟩ : BufTy).Contents (Elt F))))
              (broadcastInDim S64 ![] bcast_S_S64 (constant S_ .f32 0x3F800000#32 : (⟨S_, .f32⟩ : BufTy).Contents (Elt F)))))))
      (wl))
    (broadcastInDim S64x10 ![0, 1] bcast_S1x10_S64x10_0_1 (broadcastInDim S1x10 ![1] bcast_S10_S1x10_1 (bl)))

/-- One hidden layer after the first: bias, `max(·, 0)`, dense map, aggregation. -/
def layer (a : Feat F) (r : Row F) (w : (⟨S256x256, .f32⟩ : BufTy).Contents (Elt F)) (e : Edges F) : Feat F :=
  aggregate (dense (relu (addRow a r)) w) e

/-- THE NETWORK, from the eleven arguments. -/
def net (x : Feat F) (e : Edges F) (batch : (⟨S50000, .i32⟩ : BufTy).Contents (Elt F))
    (w1 : (⟨S256x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F))
    (w3 : (⟨S256x256, .f32⟩ : BufTy).Contents (Elt F)) (b3 : (⟨S256, .f32⟩ : BufTy).Contents (Elt F))
    (wl : (⟨S256x10, .f32⟩ : BufTy).Contents (Elt F)) (bl : (⟨S10, .f32⟩ : BufTy).Contents (Elt F)) :
    (⟨S64x10, .f32⟩ : BufTy).Contents (Elt F) :=
  head (addRow (layer (layer (aggregate (dense x w1) e) (rowOf b1) w2 e) (rowOf b2) w3 e) (rowOf b3)) batch wl bl

end Cert.Gcn

end
-- ==== Proof.GcnRef.lean ====
/-
  The reference computes `Cert.Gcn.net` of its arguments.

  The reference's run is read one host operation at a time by the generated stages `val_main_vN`. The stages of one
  aggregation are, in order, exactly the operations `Cert.Gcn.aggregate` is written with, applied to the dense map's
  result; those between two aggregations add the bias row, take `max(·, 0)` and apply the next dense map; the last ones
  are the pooling head. So each group of stages IS the corresponding function of the group before it, by unfolding
  both sides (no arithmetic: the two sides are the same term).
-/
import proofs.«138278_j82824149336595_1_alg».proof.Proof.GcnSpec
import proofs.«138278_j82824149336595_1_alg».proof.Proof.Gen.ReferenceIdeal.Read

noncomputable section

open Idealize.ShloMosaic Idealize.ShloMosaic.TcCoe Idealize.SL.Sem

namespace Cert.Gcn.Ref

open Cert.ReferenceIdeal Cert.ReferenceIdeal.Read Cert.Gcn

variable {F : FTy → Type} [FloatOps F]

/-- The first dense map and aggregation. -/
theorem layer1 (x0 : Feat F) (x1 : Edges F) (x3 : (⟨S256x256, .f32⟩ : BufTy).Contents (Elt F)) :
    val_main_v45 (F := F) x0 x1 x3 = aggregate (dense x0 x3) x1 := rfl

/-- The second layer, from the first's result. -/
theorem layer2 (x0 : Feat F) (x1 : Edges F) (x3 : (⟨S256x256, .f32⟩ : BufTy).Contents (Elt F))
    (x4 : (⟨S256, .f32⟩ : BufTy).Contents (Elt F)) (x5 : (⟨S256x256, .f32⟩ : BufTy).Contents (Elt F)) :
    val_main_v95 (F := F) x0 x1 x3 x4 x5 = layer (val_main_v45 (F := F) x0 x1 x3) (rowOf x4) x5 x1 := rfl

/-- The third layer, from the second's result. -/
theorem layer3 (x0 : Feat F) (x1 : Edges F) (x3 : (⟨S256x256, .f32⟩ : BufTy).Contents (Elt F))
    (x4 : (⟨S256, .f32⟩ : BufTy).Contents (Elt F)) (x5 : (⟨S256x256, .f32⟩ : BufTy).Contents (Elt F))
    (x6 : (⟨S256, .f32⟩ : BufTy).Contents (Elt F)) (x7 : (⟨S256x256, .f32⟩ : BufTy).Contents (Elt F)) :
    val_main_v145 (F := F) x0 x1 x3 x4 x5 x6 x7 = layer (val_main_v95 (F := F) x0 x1 x3 x4 x5) (rowOf x6) x7 x1 := rfl

/-- The last bias and the pooling head, from the third layer's result. -/
theorem pooled (x0 : Feat F) (x1 : Edges F) (x2 : (⟨S50000, .i32⟩ : BufTy).Contents (Elt F))
    (x3 : (⟨S256x256, .f32⟩ : BufTy).Contents (Elt F)) (x4 : (⟨S256, .f32⟩ : BufTy).Contents (Elt F))
    (x5 : (⟨S256x256, .f32⟩ : BufTy).Contents (Elt F)) (x6 : (⟨S256, .f32⟩ : BufTy).Contents (Elt F))
    (x7 : (⟨S256x256, .f32⟩ : BufTy).Contents (Elt F)) (x8 : (⟨S256, .f32⟩ : BufTy).Contents (Elt F))
    (x9 : (⟨S256x10, .f32⟩ : BufTy).Contents (Elt F)) (x10 : (⟨S10, .f32⟩ : BufTy).Contents (Elt F)) :
    val_main_v164 (F := F) x0 x1 x2 x3 x4 x5 x6 x7 x8 x9 x10
      = head (addRow (val_main_v145 (F := F) x0 x1 x3 x4 x5 x6 x7) (rowOf x8)) x2 x9 x10 := rfl

/-- The reference's last stage is the network of its arguments. -/
theorem stage_net (x0 : Feat F) (x1 : Edges F) (x2 : (⟨S50000, .i32⟩ : BufTy).Contents (Elt F))
    (x3 : (⟨S256x256, .f32⟩ : BufTy).Contents (Elt F)) (x4 : (⟨S256, .f32⟩ : BufTy).Contents (Elt F))
    (x5 : (⟨S256x256, .f32⟩ : BufTy).Contents (Elt F)) (x6 : (⟨S256, .f32⟩ : BufTy).Contents (Elt F))
    (x7 : (⟨S256x256, .f32⟩ : BufTy).Contents (Elt F)) (x8 : (⟨S256, .f32⟩ : BufTy).Contents (Elt F))
    (x9 : (⟨S256x10, .f32⟩ : BufTy).Contents (Elt F)) (x10 : (⟨S10, .f32⟩ : BufTy).Contents (Elt F)) :
    val_main_v164 (F := F) x0 x1 x2 x3 x4 x5 x6 x7 x8 x9 x10 = net x0 x1 x2 x3 x4 x5 x6 x7 x8 x9 x10 := by
  rw [pooled, layer3, layer2, layer1]
  rfl

/-- The reference's result, as its run states it, is the network of the launch contents of its arguments. -/
theorem result_net (m : (ℓ : Loc nD τ sig) → Buf (Elt F) ℓ) (c : Dev nD) :
    Cert.ReferenceIdeal.Value.res_main_v164 m c
      = net (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) :=
  (val_main_v164_eq m c).trans (stage_net _ _ _ _ _ _ _ _ _ _ _)

end Cert.Gcn.Ref

end
-- ==== Proof.GcnKernelRun.lean ====
/-
  The kernel program's run, with its result named.

  @main is three kernel launches among stretches of host operations. Every weakly fair execution runs the six
  segments in order and ends with every unscoped buffer at the last boundary's contents: the fold of the host
  stretches and of the launches' write-backs over the launch memory. Read at the result buffer and at the eleven
  arguments, that is the post below.
-/
import proofs.«138278_j82824149336595_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W6` and the arguments as launched. -/
theorem run : θ_run defs (onTc (τ := τ) (main (F := F))) ⟨m, fun _ => 0, ρ⟩ (fun r => ∀ c : Dev nD,
      r.2.mem ((c.tc : Thread nD τ).loc main_v158) = W6 m ρ c (Proc.devRef .tc main_v158)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v158 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.Gcn.KernelRun

end
-- ==== Proof.GcnDenseAt.lean ====
/-
  The dense map and the hidden activation, entry by entry, on the extended reals.

  Entry `(v, j)` of `a · w` is `Σ_k a (v, k) · w (k, j)`: the host's `dot_general` is that sum, with no accumulator.
  Entry `(v, k)` of the hidden activation is `max (a (v, k) + r (0, k)) 0`: the bias row reaches every node's row, and
  the zero it is compared with is the zero word read as a real.
-/
import proofs.«138278_j82824149336595_1_alg».proof.Proof.GcnSpec
import proofs.«138278_j82824149336595_1_alg».proof.Proof.Gen.ReferenceIdeal.Read
import Idealize.ShloMosaic.Lib.ValueIdx
import Idealize.ShloMosaic.Lib.Pipeline.Value
import Idealize.ShloMosaic.PureOps.Ideal.Laws

noncomputable section

open Idealize.ShloMosaic Idealize.ShloMosaic.TcCoe

namespace Cert.Gcn

open Cert.ReferenceIdeal Cert.ReferenceIdeal.Gen Cert.ReferenceIdeal.Read

/-- Entry `(v, k)` of the features: the node of `i`, the contracted feature `k`. -/
abbrev nodeFeat (i : S50000x256.Idx) (k : Fin 256) : S50000x256.Idx := lidx_main_v0 i k
/-- Entry `(k, j)` of the weights: the contracted feature `k`, the column of `i`. -/
abbrev featCol (i : S50000x256.Idx) (k : Fin 256) : S256x256.Idx := ridx_main_v0 i k
/-- Entry `(0, k)` of a one-row bias. -/
abbrev biasAt (k : Fin 256) : S1x256.Idx := fun a => match a with
  | ⟨0, _⟩ => ⟨0, Nat.one_pos⟩
  | ⟨1, _⟩ => ⟨k.val, k.isLt⟩

/-- THE DENSE MAP at an entry. -/
theorem dense_at (a : Feat Ideal) (w : (⟨S256x256, .f32⟩ : BufTy).Contents (Elt Ideal)) (i : S50000x256.Idx) :
    dense a w i = ∑ k : Fin 256, a (nodeFeat i k) * w (featCol i k) :=
  val_main_v0_apply a w i

/-- THE HIDDEN ACTIVATION at an entry of node `i 0` and feature `k`. -/
theorem hidden_at (a : Feat Ideal) (r : Row Ideal) (i : S50000x256.Idx) (k : Fin 256) :
    relu (addRow a r) (nodeFeat i k) = max (a (nodeFeat i k) + r (biasAt k)) (Ideal.ofBits .f32 0x00000000#32) := by
  unfold relu addRow
  rw [ValueIdx.maximumf_apply, ValueIdx.addf_apply]
  have hrow : broadcastInDim S50000x256 ![0, 1] bcast_S1x256_S50000x256_0_1 r (nodeFeat i k) = r (biasAt k) := by
    refine broadcastInDim_apply _ bcast_S1x256_S50000x256_0_1 r (nodeFeat i k) (biasAt k) fun a => ?_
    match a with
    | ⟨0, _⟩ => show (0 : Nat) = if (1 : Nat) = 1 then 0 else _; rw [if_pos rfl]
    | ⟨1, _⟩ => show k.val = if (256 : Nat) = 1 then 0 else k.val; rw [if_neg (by decide)]
  have hzero : broadcastInDim S50000x256 ![] bcast_S_S50000x256 (constant (F := Ideal) S_ .f32 0x00000000#32) (nodeFeat i k) = Ideal.ofBits .f32 0x00000000#32 :=
    broadcastInDim_apply _ bcast_S_S50000x256 (constant (F := Ideal) S_ .f32 0x00000000#32) (nodeFeat i k) (fun a => a.elim0) (fun a => a.elim0)
  rw [hrow, hzero]

/-- Entry `k` of a bias vector: the column of a one-row index. -/
abbrev colOf (j : S1x256.Idx) : S256.Idx := fun a => match a with
  | ⟨0, _⟩ => ⟨(j 1).val, (j 1).isLt⟩

/-- A bias vector reshaped to one row is the bias vector broadcast to one row: both read entry `(0, k)` at `k`. -/
theorem reshape_row (b : (⟨S256, .f32⟩ : BufTy).Contents (Elt Ideal)) (h : S256.ShapeCasts S1x256) :
    (shapeCast S1x256 b h : Row Ideal) = rowOf b := by
  funext j
  have h0 : (j 0).val < 1 := (j 0).isLt
  have e1 : shapeCast S1x256 b h j = b (colOf j) := by
    refine shapeCast_apply b h j (colOf j) ?_
    rw [Shape.rowMajor_val_two, Shape.rowMajor_val_one]
    show (j 1).val = (j 0).val * 256 + (j 1).val
    omega
  have e2 : rowOf b j = b (colOf j) := by
    unfold rowOf
    refine broadcastInDim_apply _ bcast_S256_S1x256_1 b j (colOf j) fun a => ?_
    match a with
    | ⟨0, _⟩ => show (j 1).val = if (256 : Nat) = 1 then 0 else (j 1).val; rw [if_neg (by decide)]
  rw [e1, e2]

end Cert.Gcn

end
-- ==== Proof.GcnBlock.lean ====
/-
  What one grid point's body computes, entry by entry, on the extended reals.

  A body loads a block `a` of 5000 node rows and the whole 256 × 256 weight matrix `w`, and stores a matrix product
  into a zero accumulator. Changing the float format of an operand is the identity here, and zero plus a sum is the
  sum, so entry `(r, j)` of what the first body stores is `Σ_k a (r, k) · w (k, j)`. The second and third bodies first
  add the bias row `b` to every row of `a` and take the maximum with zero: their entry `(r, j)` is
  `Σ_k max (a (r, k) + b (0, k)) 0 · w (k, j)`.
-/
import proofs.«138278_j82824149336595_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe

namespace Cert.Gcn.Block

open Cert.KernelIdeal Cert.KernelIdeal.Gen

/-- Entry `(r, k)` of a block of node rows: the row of `j`, the contracted feature `k`. -/
abbrev lrow (j : S5000x256.Idx) (k : Fin 256) : S5000x256.Idx := fun a => match a with
  | ⟨0, _⟩ => ⟨(j 0).val, (j 0).isLt⟩
  | ⟨1, _⟩ => ⟨k.val, k.isLt⟩
/-- Entry `(k, j)` of the weight matrix: the contracted feature `k`, the column of `j`. -/
abbrev rcol (j : S5000x256.Idx) (k : Fin 256) : S256x256.Idx := fun a => match a with
  | ⟨0, _⟩ => ⟨k.val, k.isLt⟩
  | ⟨1, _⟩ => ⟨(j 1).val, (j 1).isLt⟩
/-- Entry `(0, k)` of the one-row bias. -/
abbrev brow (k : Fin 256) : S1x256.Idx := fun a => match a with
  | ⟨0, _⟩ => ⟨0, Nat.one_pos⟩
  | ⟨1, _⟩ => ⟨k.val, k.isLt⟩

/-- The left operand of the block's product at output entry `j` and contraction index `q`: row of `j`, … -/
theorem lhs_0 (j : S5000x256.Idx) (q : dot_S5000x256_S256x256_S5000x256_1_0_0_1_n_n.contr.Idx) :
    (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- … column `q`. -/
theorem lhs_1 (j : S5000x256.Idx) (q : dot_S5000x256_S256x256_S5000x256_1_0_0_1_n_n.contr.Idx) :
    (dot_S5000x256_S256x256_S5000x256_1_0_0_1_n_n.lhsIdx j q 1).val = (q ⟨0, by decide⟩).val :=
  dot_S5000x256_S256x256_S5000x256_1_0_0_1_n_n.lhsIdx_val_of_single rfl j q
/-- The right operand: row `q`, … -/
theorem rhs_0 (j : S5000x256.Idx) (q : dot_S5000x256_S256x256_S5000x256_1_0_0_1_n_n.contr.Idx) :
    (dot_S5000x256_S256x256_S5000x256_1_0_0_1_n_n.rhsIdx j q 0).val = (q ⟨0, by decide⟩).val :=
  dot_S5000x256_S256x256_S5000x256_1_0_0_1_n_n.rhsIdx_val_of_single rfl j q
/-- … column of `j`. -/
theorem rhs_1 (j : S5000x256.Idx) (q : dot_S5000x256_S256x256_S5000x256_1_0_0_1_n_n.contr.Idx) :
    (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A block's product into the zero accumulator, at entry `j`: the sum over the contracted feature. -/
theorem product_at {φ₁ φ₂ : FTy} (a : FVec Ideal S5000x256 φ₁) (w : FVec Ideal S256x256 φ₂) (j : S5000x256.Idx) :
    matmul dot_S5000x256_S256x256_S5000x256_1_0_0_1_n_n none a w (constant S5000x256 .f32 0x00000000#32) j
      = ∑ k : Fin 256, a (lrow j k) * w (rcol j k) := by
  show FloatOps.matmul dot_S5000x256_S256x256_S5000x256_1_0_0_1_n_n none a w (constant S5000x256 .f32 0x00000000#32) j = _
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx j ((ValueIdx.contrEquiv1 dot_S5000x256_S256x256_S5000x256_1_0_0_1_n_n 256 rfl rfl).symm k) = lrow j k := funext fun a => Fin.ext (by
    match a with
    | ⟨0, _⟩ => exact lhs_0 _ _
    | ⟨1, _⟩ => exact (lhs_1 _ _).trans hk)
  have er : dot_S5000x256_S256x256_S5000x256_1_0_0_1_n_n.rhsIdx j ((ValueIdx.contrEquiv1 dot_S5000x256_S256x256_S5000x256_1_0_0_1_n_n 256 rfl rfl).symm k) = rcol j k := funext fun a => Fin.ext (by
    match a with
    | ⟨0, _⟩ => exact (rhs_0 _ _).trans hk
    | ⟨1, _⟩ => exact rhs_1 _ _)
  rw [el, er]

/-- THE FIRST BODY's stored entry: `Σ_k a (r, k) · w (k, j)`. -/
theorem first_at (a : Vec Ideal S5000x256 .f32) (w : Vec Ideal S256x256 .f32) (j : S5000x256.Idx) :
    k0_pay1 (F := Ideal) a w j = ∑ k : Fin 256, a (lrow j k) * w (rcol j k) := by
  unfold k0_pay1
  exact product_at _ _ j

/-- The bias row spread over the block, at entry `i`: the row's entry in `i`'s column. -/
theorem spread_at (b : Vec Ideal S1x256 .f32) (j : S5000x256.Idx) (k : Fin 256) :
    broadcastTo S5000x256 (shapeCast S1x256 b shapeCasts_S1x256_S1x256) broadcasts_S1x256_S5000x256 (lrow j k) = b (brow k) := by
  rw [shapeCast_self]
  refine broadcastTo_apply b broadcasts_S1x256_S5000x256 (lrow j k) (brow k) fun a => ?_
  match a with
  | ⟨0, _⟩ => show (0 : Nat) = if (1 : Nat) = 1 then 0 else _; rw [if_pos rfl]
  | ⟨1, _⟩ => show k.val = if (256 : Nat) = 1 then 0 else k.val; rw [if_neg (by decide)]

/-- THE LATER BODIES' stored entry: `Σ_k max (a (r, k) + b (0, k)) 0 · w (k, j)`. -/
theorem later_at (a : Vec Ideal S5000x256 .f32) (b : Vec Ideal S1x256 .f32) (w : Vec Ideal S256x256 .f32) (j : S5000x256.Idx) :
    k1_pay1 (F := Ideal) a b w j
      = ∑ k : Fin 256, max (a (lrow j k) + b (brow k)) (Ideal.ofBits .f32 0x00000000#32) * w (rcol j k) := by
  unfold k1_pay1
  refine (product_at _ _ j).trans (Finset.sum_congr rfl fun k _ => ?_)
  show max (shapeCast S5000x256 a shapeCasts_S5000x256_S5000x256 (lrow j k)
      + broadcastTo S5000x256 (shapeCast S1x256 b shapeCasts_S1x256_S1x256) broadcasts_S1x256_S5000x256 (lrow j k)) (Ideal.ofBits .f32 0x00000000#32) * w (rcol j k) = _
  rw [spread_at, shapeCast_self]

/-- The third body is the second's text. -/
theorem third_eq (a : Vec Ideal S5000x256 .f32) (b : Vec Ideal S1x256 .f32) (w : Vec Ideal S256x256 .f32) :
    k2_pay1 (F := Ideal) a b w = k1_pay1 (F := Ideal) a b w := rfl

end Cert.Gcn.Block

end
-- ==== Proof.GcnRegions.lean ====
/-
  What each of the three kernel launches leaves in its result array.

  A launch runs its body at ten grid points; point `t` reads node rows `5000·t … 5000·t + 4999` of the features (and
  the whole bias row and weight matrix) and writes back the same rows of the result. By the entry-by-entry reading
  of the body and of the dense map, what point `t` writes back is rows `5000·t …` of the dense map of the whole
  arrays — the contracted feature `k` ranges over all 256 columns in both — and the ten row blocks cover the
  50000 rows. So after the launch the result array is the dense map of the arrays the launch found, whatever they
  are: the statements are at an arbitrary contents `V`.
-/
import proofs.«138278_j82824149336595_1_alg».proof.Proof.Gen.KernelIdeal.Frame
import proofs.«138278_j82824149336595_1_alg».proof.Proof.GcnBlock
import proofs.«138278_j82824149336595_1_alg».proof.Proof.GcnDenseAt
import Idealize.ShloMosaic.Lib.Pipeline.Value

set_option maxRecDepth 16384

noncomputable section

open Idealize.ShloMosaic Idealize.ShloMosaic.TcCoe Idealize.SL.Sem
open Idealize.ShloMosaic.Pipeline (Dat)

namespace Cert.Gcn.Regions

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first dense map -/

/-- Where the windows' blocks sit at point `t`: the node rows `5000·t …` of the features and of the result, the whole
    weight matrix. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is its block of the dense map of the features. -/
theorem flushed0 (c : Dev nD) (t : Fin cfg0.N) :
    (dat0 (F := Ideal) V c).flushed 2 t
      = ((cfg0.win 2).blk t).view.read (Elt Ideal) (dense (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  obtain ⟨e00, e01, e10, e11, e20, e21⟩ := index0 t
  funext j
  show k0_pay1 (iblk0 V c 0 t) (iblk0 V c 1 t) j = dense (V c main_arg0) (V c main_arg3) (((cfg0.win 2).blk t).view.emb j)
  rw [Block.first_at, dense_at]
  refine Finset.sum_congr rfl fun k _ => ?_
  have hj0 : (j 0).val < 5000 := (j 0).isLt
  have hj1 : (j 1).val < 256 := (j 1).isLt
  congr 1
  · show V c main_arg0 (((cfg0.win 0).blk t).view.emb (Block.lrow j k)) = V c main_arg0 (nodeFeat (((cfg0.win 2).blk t).view.emb j) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_arg3 (((cfg0.win 1).blk t).view.emb (Block.rcol j k)) = V c main_arg3 (featCol (((cfg0.win 2).blk t).view.emb j) k)
    refine congrArg _ (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-- An entry of the result is in point `t`'s block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v0).slice (win0_2.rect t)).set ↔ _
  rw [View.set_slice_whole, Rect.mem_set_unit]
  exact Iff.rfl

/-- Every entry of the result is in the block of the point that owns its node row: point `row / 5000`. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  refine ⟨⟨(i 0).val / 5000, by rw [hN]; omega⟩, flush0_2 _, ?_⟩
  rw [mem_blk0]
  obtain ⟨-, -, -, -, e20, e21⟩ := index0 ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e20]; show (i 0).val / 5000 * 5000 ≤ (i 0).val ∧ (i 0).val < (i 0).val / 5000 * 5000 + 5000; omega
  | ⟨1, _⟩ => show win0_2.index _ (1 : Fin 2) * 256 ≤ (i 1).val ∧ (i 1).val < win0_2.index _ (1 : Fin 2) * 256 + 256; rw [e21]; omega

/-- THE RESULT ARRAY of region 0: the dense map of the arrays the region finds. -/
theorem result0 (c : Dev nD) :
    (dat0 (F := Ideal) V c).arrAt 2 cfg0.N = dense (V c main_arg0) (V c main_arg3) :=
  (dat0 V c).arrAt_eq_of_cover 2 _ (fun t _ => flushed0 V c t) cover0

/-! ## Region 1: bias, maximum with zero, dense map -/

/-- Where the windows' blocks sit at point `t`: the node rows `5000·t …` of the features and of the result, the whole
    bias row and the whole weight matrix. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is its block of the dense map of the hidden activation. -/
theorem flushed1 (c : Dev nD) (t : Fin cfg1.N) :
    (dat1 (F := Ideal) V c).flushed 3 t
      = ((cfg1.win 3).blk t).view.read (Elt Ideal) (dense (relu (addRow (V c main_v45) (V c main_v46))) (V c main_arg5)) := by
  show (cfg1.win 3).cut (grid1.coords t) ((dat1 V c).after 3 t) = _
  rw [after1_3]
  unfold out1_3
  rw [View.canon_unit_zero hz]
  simp only [View.ld_unit_zero (S := S5000x256) hz, View.ld_unit_zero (S := S1x256) hz, View.ld_unit_zero (S := S256x256) hz]
  obtain ⟨e00, e01, e10, e11, e20, e21, e30, e31⟩ := index1 t
  funext j
  show k1_pay1 (iblk1 V c 0 t) (iblk1 V c 1 t) (iblk1 V c 2 t) j
    = dense (relu (addRow (V c main_v45) (V c main_v46))) (V c main_arg5) (((cfg1.win 3).blk t).view.emb j)
  rw [Block.later_at, dense_at]
  refine Finset.sum_congr rfl fun k _ => ?_
  rw [hidden_at]
  have hj0 : (j 0).val < 5000 := (j 0).isLt
  have hj1 : (j 1).val < 256 := (j 1).isLt
  congr 1
  · congr 1
    congr 1
    · show V c main_v45 (((cfg1.win 0).blk t).view.emb (Block.lrow j k)) = V c main_v45 (nodeFeat (((cfg1.win 3).blk t).view.emb j) k)
      refine congrArg _ (funext fun a => Fin.ext ?_)
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 256 + 1 * k.val = k.val; omega
    · show V c main_v46 (((cfg1.win 1).blk t).view.emb (Block.brow k)) = V c main_v46 (biasAt k)
      refine congrArg _ (funext fun a => Fin.ext ?_)
      match a with
      | ⟨0, _⟩ => show win1_1.index t (0 : Fin 2) * 1 + 1 * 0 = 0; omega
      | ⟨1, _⟩ => show win1_1.index t (1 : Fin 2) * 256 + 1 * k.val = k.val; omega
  · show V c main_arg5 (((cfg1.win 2).blk t).view.emb (Block.rcol j k)) = V c main_arg5 (featCol (((cfg1.win 3).blk t).view.emb j) k)
    refine congrArg _ (funext fun a => Fin.ext ?_)
    match a with
    | ⟨0, _⟩ => show win1_2.index t (0 : Fin 2) * 256 + 1 * k.val = k.val; omega
    | ⟨1, _⟩ => show win1_2.index t (1 : Fin 2) * 256 + 1 * (j 1).val = win1_3.index t (1 : Fin 2) * 256 + 1 * (j 1).val; omega

/-- An entry of the result is in point `t`'s block iff each coordinate is in the block's range on its axis. -/
theorem mem_blk1 (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v47).slice (win1_3.rect t)).set ↔ _
  rw [View.set_slice_whole, Rect.mem_set_unit]
  exact Iff.rfl

/-- Every entry of the result is in the block of the point that owns its node row: point `row / 5000`. -/
theorem cover1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 10 := N_1
  refine ⟨⟨(i 0).val / 5000, by rw [hN]; omega⟩, flush1_3 _, ?_⟩
  rw [mem_blk1]
  obtain ⟨-, -, -, -, -, -, e30, e31⟩ := index1 ⟨(i 0).val / 5000, by rw [hN]; omega⟩
  intro a
  match a with
  | ⟨0, _⟩ => show win1_3.index _ (0 : Fin 2) * 5000 ≤ (i 0).val ∧ (i 0).val < win1_3.index _ (0 : Fin 2) * 5000 + 5000; rw [e30]; show (i 0).val / 5000 * 5000 ≤ (i 0).val ∧ (i 0).val < (i 0).val / 5000 * 5000 + 5000; omega
  | ⟨1, _⟩ => show win1_3.index _ (1 : Fin 2) * 256 ≤ (i 1).val ∧ (i 1).val < win1_3.index _ (1 : Fin 2) * 256 + 256; rw [e31]; omega

/-- THE RESULT ARRAY of region 1: the dense map of the hidden activation of the arrays the region finds. -/
theorem result1 (c : Dev nD) :
    (dat1 (F := Ideal) V c).arrAt 3 cfg1.N = dense (relu (addRow (V c main_v45) (V c main_v46))) (V c main_arg5) :=
  (dat1 V c).arrAt_eq_of_cover 3 _ (fun t _ => flushed1 V c t) cover1

/-! ## Region 2: bias, maximum with zero, dense map -/

/-- Where the windows' blocks sit at point `t`: the node rows `5000·t …` of the features and of the result, the whole
    bias row and the whole weight matrix. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is its block of the dense map of the hidden activation. -/
theorem flushed2 (c : Dev nD) (t : Fin cfg2.N) :
    (dat2 (F := Ideal) V c).flushed 3 t
      = ((cfg2.win 3).blk t).view.read (Elt Ideal) (dense (relu (addRow (V c main_v92) (V c main_v93))) (V c main_arg7)) := by
  show (cfg2.win 3).cut (grid2.coords t) ((dat2 V c).after 3 t) = _
  rw [after2_3]
  unfold out2_3
  rw [View.canon_unit_zero hz]
  simp only [View.ld_unit_zero (S := S5000x256) hz, View.ld_unit_zero (S := S1x256) hz, View.ld_unit_zero (S := S256x256) hz]
  obtain ⟨e00, e01, e10, e11, e20, e21, e30, e31⟩ := index2 t
  funext j
  show k2_pay1 (iblk2 V c 0 t) (iblk2 V c 1 t) (iblk2 V c 2 t) j
    = dense (relu (addRow (V c main_v92) (V c main_v93))) (V c main_arg7) (((cfg2.win 3).blk t).view.emb j)
  rw [Block.third_eq, Block.later_at, dense_at]
  refine Finset.sum_congr rfl fun k _ => ?_
  rw [hidden_at]
  have hj0 : (j 0).val < 5000 := (j 0).isLt
  have hj1 : (j 1).val < 256 := (j 1).isLt
  congr 1
  · congr 1
    congr 1
    · show V c main_v92 (((cfg2.win 0).blk t).view.emb (Block.lrow j k)) = V c main_v92 (nodeFeat (((cfg2.win 3).blk t).view.emb j) k)
      refine congrArg _ (funext fun a => Fin.ext ?_)
      match a with
      | ⟨0, _⟩ => show win2_0.index t (0 : Fin 2) * 5000 + 1 * (j 0).val = win2_3.index t (0 : Fin 2) * 5000 + 1 * (j 0).val; omega
      | ⟨1, _⟩ => show win2_0.index t (1 : Fin 2) * 256 + 1 * k.val = k.val; omega
    · show V c main_v93 (((cfg2.win 1).blk t).view.emb (Block.brow k)) = V c main_v93 (biasAt k)
      refine congrArg _ (funext fun a => Fin.ext ?_)
      match a with
      | ⟨0, _⟩ => show win2_1.index t (0 : Fin 2) * 1 + 1 * 0 = 0; omega
      | ⟨1, _⟩ => show win2_1.index t (1 : Fin 2) * 256 + 1 * k.val = k.val; omega
  · show V c main_arg7 (((cfg2.win 2).blk t).view.emb (Block.rcol j k)) = V c main_arg7 (featCol (((cfg2.win 3).blk t).view.emb j) k)
    refine congrArg _ (funext fun a => Fin.ext ?_)
    match a with
    | ⟨0, _⟩ => show win2_2.index t (0 : Fin 2) * 256 + 1 * k.val = k.val; omega
    | ⟨1, _⟩ => show win2_2.index t (1 : Fin 2) * 256 + 1 * (j 1).val = win2_3.index t (1 : Fin 2) * 256 + 1 * (j 1).val; omega

/-- An entry of the result is in point `t`'s block iff each coordinate is in the block's range on its axis. -/
theorem mem_blk2 (t : Fin cfg2.N) (i : S50000x256.Idx) :
    i ∈ ((cfg2.win 3).blk t).view.set ↔ ∀ a : Fin 2, win2_3.index t a * S5000x256.size a ≤ (i a).val ∧ (i a).val < win2_3.index t a * S5000x256.size a + S5000x256.size a := by
  show i ∈ ((View.whole main_v94).slice (win2_3.rect t)).set ↔ _
  rw [View.set_slice_whole, Rect.mem_set_unit]
  exact Iff.rfl

/-- Every entry of the result is in the block of the point that owns its node row: point `row / 5000`. -/
theorem cover2 (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  have hN : cfg2.N = 10 := N_2
  refine ⟨⟨(i 0).val / 5000, by rw [hN]; omega⟩, flush2_3 _, ?_⟩
  rw [mem_blk2]
  obtain ⟨-, -, -, -, -, -, e30, e31⟩ := index2 ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [e30]; show (i 0).val / 5000 * 5000 ≤ (i 0).val ∧ (i 0).val < (i 0).val / 5000 * 5000 + 5000; omega
  | ⟨1, _⟩ => show win2_3.index _ (1 : Fin 2) * 256 ≤ (i 1).val ∧ (i 1).val < win2_3.index _ (1 : Fin 2) * 256 + 256; rw [e31]; omega

/-- THE RESULT ARRAY of region 2: the dense map of the hidden activation of the arrays the region finds. -/
theorem result2 (c : Dev nD) :
    (dat2 (F := Ideal) V c).arrAt 3 cfg2.N = dense (relu (addRow (V c main_v92) (V c main_v93))) (V c main_arg7) :=
  (dat2 V c).arrAt_eq_of_cover 3 _ (fun t _ => flushed2 V c t) cover2

end Cert.Gcn.Regions

end
-- ==== Proof.GcnFold.lean ====
/-
  The kernel program's result buffer ends at `Cert.Gcn.net` of the launch contents of its arguments.

  The buffer contents at the six segment boundaries are a fold over the launch memory. Walking it from the launch:
  the first launch leaves `x · W1` in its result array (the arguments untouched); the first host stretch aggregates it
  and reshapes the bias `b1` to a row; the second launch, finding those, leaves `max (agg + b1, 0) · W2`; the second
  stretch aggregates that and reshapes `b2`; the third launch likewise with `W3`; the last stretch aggregates,
  adds `b3`, pools per graph and applies the classifier. Each host stretch is read at an arbitrary contents, as the
  shared functions of the buffers it reads, and no stretch writes an argument.
-/
import proofs.«138278_j82824149336595_1_alg».proof.Proof.Gen.KernelIdeal.Frame
import proofs.«138278_j82824149336595_1_alg».proof.Proof.GcnSpec
import proofs.«138278_j82824149336595_1_alg».proof.Proof.GcnDenseAt
import proofs.«138278_j82824149336595_1_alg».proof.Proof.GcnRegions
import Idealize.ShloMosaic.Lib.StableHlo.Run

set_option maxRecDepth 16384

noncomputable section

open Idealize.ShloMosaic Idealize.ShloMosaic.TcCoe Idealize.SL.Sem Idealize.ShloMosaic.StableHlo

namespace Cert.Gcn.Fold

open Cert.KernelIdeal Cert.KernelIdeal.Gen Cert.Gcn

/-! ## The host stretches, at any contents -/

section Stretches

variable (W : Valuation τ sig (Elt Ideal))

set_option maxHeartbeats 8000000 in
/-- The first stretch aggregates the first launch's result over the edge list. -/
theorem agg1 : StableHlo.after hostOps1 W (Proc.devRef .tc main_v45) = aggregate (W (Proc.devRef .tc main_v0)) (W (Proc.devRef .tc main_arg1)) := by
  after_results_simp <;> rfl

/-- … and reshapes the first bias to a row. -/
theorem row1 : StableHlo.after hostOps1 W (Proc.devRef .tc main_v46) = rowOf (W (Proc.devRef .tc main_arg4)) := by
  refine Eq.trans ?_ (reshape_row (W (Proc.devRef .tc main_arg4)) shapeCasts_S256_S1x256)
  after_results
  rfl

set_option maxHeartbeats 8000000 in
/-- It writes no argument. -/
theorem keep1 : StableHlo.after hostOps1 W (Proc.devRef .tc main_arg1) = W (Proc.devRef .tc main_arg1)
    ∧ StableHlo.after hostOps1 W (Proc.devRef .tc main_arg2) = W (Proc.devRef .tc main_arg2)
    ∧ StableHlo.after hostOps1 W (Proc.devRef .tc main_arg5) = W (Proc.devRef .tc main_arg5)
    ∧ StableHlo.after hostOps1 W (Proc.devRef .tc main_arg6) = W (Proc.devRef .tc main_arg6)
    ∧ StableHlo.after hostOps1 W (Proc.devRef .tc main_arg7) = W (Proc.devRef .tc main_arg7)
    ∧ StableHlo.after hostOps1 W (Proc.devRef .tc main_arg8) = W (Proc.devRef .tc main_arg8)
    ∧ StableHlo.after hostOps1 W (Proc.devRef .tc main_arg9) = W (Proc.devRef .tc main_arg9)
    ∧ StableHlo.after hostOps1 W (Proc.devRef .tc main_arg10) = W (Proc.devRef .tc main_arg10) :=
  ⟨by after_results, by after_results, by after_results, by after_results, by after_results, by after_results, by after_results, by after_results⟩

set_option maxHeartbeats 8000000 in
/-- The second stretch aggregates the second launch's result. -/
theorem agg2 : StableHlo.after hostOps2 W (Proc.devRef .tc main_v92) = aggregate (W (Proc.devRef .tc main_v47)) (W (Proc.devRef .tc main_arg1)) := by
  after_results_simp <;> rfl

/-- … and reshapes the second bias to a row. -/
theorem row2 : StableHlo.after hostOps2 W (Proc.devRef .tc main_v93) = rowOf (W (Proc.devRef .tc main_arg6)) := by
  refine Eq.trans ?_ (reshape_row (W (Proc.devRef .tc main_arg6)) shapeCasts_S256_S1x256)
  after_results
  rfl

set_option maxHeartbeats 8000000 in
/-- It writes no argument. -/
theorem keep2 : StableHlo.after hostOps2 W (Proc.devRef .tc main_arg1) = W (Proc.devRef .tc main_arg1)
    ∧ StableHlo.after hostOps2 W (Proc.devRef .tc main_arg2) = W (Proc.devRef .tc main_arg2)
    ∧ StableHlo.after hostOps2 W (Proc.devRef .tc main_arg7) = W (Proc.devRef .tc main_arg7)
    ∧ StableHlo.after hostOps2 W (Proc.devRef .tc main_arg8) = W (Proc.devRef .tc main_arg8)
    ∧ StableHlo.after hostOps2 W (Proc.devRef .tc main_arg9) = W (Proc.devRef .tc main_arg9)
    ∧ StableHlo.after hostOps2 W (Proc.devRef .tc main_arg10) = W (Proc.devRef .tc main_arg10) :=
  ⟨by after_results, by after_results, by after_results, by after_results, by after_results, by after_results⟩

set_option maxHeartbeats 16000000 in
/-- The last stretch aggregates the third launch's result, adds the third bias, pools and classifies. -/
theorem tail3 : StableHlo.after hostOps3 W (Proc.devRef .tc main_v158)
    = head (addRow (aggregate (W (Proc.devRef .tc main_v94)) (W (Proc.devRef .tc main_arg1))) (rowOf (W (Proc.devRef .tc main_arg8))))
        (W (Proc.devRef .tc main_arg2)) (W (Proc.devRef .tc main_arg9)) (W (Proc.devRef .tc main_arg10)) := by
  after_results_simp <;> rfl

end Stretches

/-! ## The walk from the launch memory to the result -/

variable (m : (ℓ : Loc nD τ sig) → Buf (Elt Ideal) ℓ) (ρ : Dev nD → PrngReg)

/-- THE RESULT BUFFER at the last boundary is the network of the launch contents of the arguments. -/
theorem result_net (c : Dev nD) :
    W6 m ρ c (Proc.devRef .tc main_v158)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  -- after the first launch: its result is the dense map of the launch contents, every argument as launched
  have x0 : W1 m ρ c (Proc.devRef .tc main_v0) = dense (m ((c : Thread nD τ).loc main_arg0)) (m ((c : Thread nD τ).loc main_arg3)) :=
    (W1_arr m ρ c 2).trans (Regions.result0 (V0 m ρ) c)
  have x1 : W1 m ρ c (Proc.devRef .tc main_arg1) = (m ((c : Thread nD τ).loc main_arg1)) := W1_of_ne m ρ c main_arg1 (by decide)
  have x2 : W1 m ρ c (Proc.devRef .tc main_arg2) = (m ((c : Thread nD τ).loc main_arg2)) := W1_of_ne m ρ c main_arg2 (by decide)
  have x4 : W1 m ρ c (Proc.devRef .tc main_arg4) = (m ((c : Thread nD τ).loc main_arg4)) := W1_of_ne m ρ c main_arg4 (by decide)
  have x5 : W1 m ρ c (Proc.devRef .tc main_arg5) = (m ((c : Thread nD τ).loc main_arg5)) := W1_of_ne m ρ c main_arg5 (by decide)
  have x6 : W1 m ρ c (Proc.devRef .tc main_arg6) = (m ((c : Thread nD τ).loc main_arg6)) := W1_of_ne m ρ c main_arg6 (by decide)
  have x7 : W1 m ρ c (Proc.devRef .tc main_arg7) = (m ((c : Thread nD τ).loc main_arg7)) := W1_of_ne m ρ c main_arg7 (by decide)
  have x8 : W1 m ρ c (Proc.devRef .tc main_arg8) = (m ((c : Thread nD τ).loc main_arg8)) := W1_of_ne m ρ c main_arg8 (by decide)
  have x9 : W1 m ρ c (Proc.devRef .tc main_arg9) = (m ((c : Thread nD τ).loc main_arg9)) := W1_of_ne m ρ c main_arg9 (by decide)
  have x10 : W1 m ρ c (Proc.devRef .tc main_arg10) = (m ((c : Thread nD τ).loc main_arg10)) := W1_of_ne m ρ c main_arg10 (by decide)
  -- after the first stretch
  obtain ⟨k1, k2, k5, k6, k7, k8, k9, k10⟩ := keep1 (W1 m ρ c)
  have y45 : W2 m ρ c (Proc.devRef .tc main_v45) = aggregate (dense (m ((c : Thread nD τ).loc main_arg0)) (m ((c : Thread nD τ).loc main_arg3))) (m ((c : Thread nD τ).loc main_arg1)) :=
    (agg1 (W1 m ρ c)).trans (by rw [x0, x1])
  have y46 : W2 m ρ c (Proc.devRef .tc main_v46) = rowOf (m ((c : Thread nD τ).loc main_arg4)) := (row1 (W1 m ρ c)).trans (by rw [x4])
  have y1 : W2 m ρ c (Proc.devRef .tc main_arg1) = (m ((c : Thread nD τ).loc main_arg1)) := k1.trans x1
  have y2 : W2 m ρ c (Proc.devRef .tc main_arg2) = (m ((c : Thread nD τ).loc main_arg2)) := k2.trans x2
  have y5 : W2 m ρ c (Proc.devRef .tc main_arg5) = (m ((c : Thread nD τ).loc main_arg5)) := k5.trans x5
  have y6 : W2 m ρ c (Proc.devRef .tc main_arg6) = (m ((c : Thread nD τ).loc main_arg6)) := k6.trans x6
  have y7 : W2 m ρ c (Proc.devRef .tc main_arg7) = (m ((c : Thread nD τ).loc main_arg7)) := k7.trans x7
  have y8 : W2 m ρ c (Proc.devRef .tc main_arg8) = (m ((c : Thread nD τ).loc main_arg8)) := k8.trans x8
  have y9 : W2 m ρ c (Proc.devRef .tc main_arg9) = (m ((c : Thread nD τ).loc main_arg9)) := k9.trans x9
  have y10 : W2 m ρ c (Proc.devRef .tc main_arg10) = (m ((c : Thread nD τ).loc main_arg10)) := k10.trans x10
  -- after the second launch
  have r1 := Regions.result1 (V2 m ρ) c
  dsimp only [V2] at r1
  rw [y45, y46, y5] at r1
  have z47 := (W3_arr m ρ c 3).trans r1
  have z1 : W3 m ρ c (Proc.devRef .tc main_arg1) = (m ((c : Thread nD τ).loc main_arg1)) := (W3_of_ne m ρ c main_arg1 (by decide)).trans y1
  have z2 : W3 m ρ c (Proc.devRef .tc main_arg2) = (m ((c : Thread nD τ).loc main_arg2)) := (W3_of_ne m ρ c main_arg2 (by decide)).trans y2
  have z6 : W3 m ρ c (Proc.devRef .tc main_arg6) = (m ((c : Thread nD τ).loc main_arg6)) := (W3_of_ne m ρ c main_arg6 (by decide)).trans y6
  have z7 : W3 m ρ c (Proc.devRef .tc main_arg7) = (m ((c : Thread nD τ).loc main_arg7)) := (W3_of_ne m ρ c main_arg7 (by decide)).trans y7
  have z8 : W3 m ρ c (Proc.devRef .tc main_arg8) = (m ((c : Thread nD τ).loc main_arg8)) := (W3_of_ne m ρ c main_arg8 (by decide)).trans y8
  have z9 : W3 m ρ c (Proc.devRef .tc main_arg9) = (m ((c : Thread nD τ).loc main_arg9)) := (W3_of_ne m ρ c main_arg9 (by decide)).trans y9
  have z10 : W3 m ρ c (Proc.devRef .tc main_arg10) = (m ((c : Thread nD τ).loc main_arg10)) := (W3_of_ne m ρ c main_arg10 (by decide)).trans y10
  -- after the second stretch
  obtain ⟨l1, l2, l7, l8, l9, l10⟩ := keep2 (W3 m ρ c)
  have u92 : W4 m ρ c (Proc.devRef .tc main_v92) = _ := (agg2 (W3 m ρ c)).trans (by rw [z47, z1])
  have u93 : W4 m ρ c (Proc.devRef .tc main_v93) = rowOf (m ((c : Thread nD τ).loc main_arg6)) := (row2 (W3 m ρ c)).trans (by rw [z6])
  have u1 : W4 m ρ c (Proc.devRef .tc main_arg1) = (m ((c : Thread nD τ).loc main_arg1)) := l1.trans z1
  have u2 : W4 m ρ c (Proc.devRef .tc main_arg2) = (m ((c : Thread nD τ).loc main_arg2)) := l2.trans z2
  have u7 : W4 m ρ c (Proc.devRef .tc main_arg7) = (m ((c : Thread nD τ).loc main_arg7)) := l7.trans z7
  have u8 : W4 m ρ c (Proc.devRef .tc main_arg8) = (m ((c : Thread nD τ).loc main_arg8)) := l8.trans z8
  have u9 : W4 m ρ c (Proc.devRef .tc main_arg9) = (m ((c : Thread nD τ).loc main_arg9)) := l9.trans z9
  have u10 : W4 m ρ c (Proc.devRef .tc main_arg10) = (m ((c : Thread nD τ).loc main_arg10)) := l10.trans z10
  -- after the third launch
  have r2 := Regions.result2 (V4 m ρ) c
  dsimp only [V4] at r2
  rw [u92, u93, u7] at r2
  have v94 := (W5_arr m ρ c 3).trans r2
  have v1 : W5 m ρ c (Proc.devRef .tc main_arg1) = (m ((c : Thread nD τ).loc main_arg1)) := (W5_of_ne m ρ c main_arg1 (by decide)).trans u1
  have v2 : W5 m ρ c (Proc.devRef .tc main_arg2) = (m ((c : Thread nD τ).loc main_arg2)) := (W5_of_ne m ρ c main_arg2 (by decide)).trans u2
  have v8 : W5 m ρ c (Proc.devRef .tc main_arg8) = (m ((c : Thread nD τ).loc main_arg8)) := (W5_of_ne m ρ c main_arg8 (by decide)).trans u8
  have v9 : W5 m ρ c (Proc.devRef .tc main_arg9) = (m ((c : Thread nD τ).loc main_arg9)) := (W5_of_ne m ρ c main_arg9 (by decide)).trans u9
  have v10 : W5 m ρ c (Proc.devRef .tc main_arg10) = (m ((c : Thread nD τ).loc main_arg10)) := (W5_of_ne m ρ c main_arg10 (by decide)).trans u10
  -- the last stretch
  refine (tail3 (W5 m ρ c)).trans ?_
  rw [v94, v1, v2, v8, v9, v10]
  rfl

end Cert.Gcn.Fold

end
-- ==== Proof.lean ====
/-
  The certificate of a three-layer graph-convolution network: three tiled matrix-product kernels among host
  aggregations, against the same network written as plain array operations.

  Both programs compute, on the extended reals, `Cert.Gcn.net` of their eleven arguments (Proof/GcnSpec.lean): a
  dense map and a symmetric-normalised aggregation over the edge list, three times, with a bias row after each and
  `max(·, 0)` after the first two; then the mean of the node rows of each graph and an affine classifier.

  The reference applies the operations in that order, one host operation at a time (Proof/GcnRef.lean). The kernel
  program fuses each hidden bias and `max(·, 0)` into the NEXT dense map's kernel and computes the dense maps in ten
  blocks of 5000 node rows, each a matrix product into a zero accumulator with its operands passed through a narrower
  float format. On the extended reals the format change is the identity and zero plus a sum is the sum, so a block of
  the kernel's product is the same block of `a · w` (Proof/GcnBlock.lean, Proof/GcnDenseAt.lean), the ten blocks tile the
  result (Proof/GcnRegions.lean), and the host stretches between the launches are, operation for operation, the
  aggregation and the pooling head the reference applies (Proof/GcnFold.lean). No law of arithmetic beyond
  `0 + s = s` is used, so the finiteness of the inputs is never opened.

  Each program terminates without a fault and leaves its eleven arguments unchanged: no host operation and no launch
  writes an argument's buffer, which is part of each run's post. The idealization rewrote no operation of the
  kernel program, so there is nothing to preserve.
-/
import proofs.«138278_j82824149336595_1_alg».proof.Defs
import proofs.«138278_j82824149336595_1_alg».proof.Proof.Gen.Kernel
import proofs.«138278_j82824149336595_1_alg».proof.Proof.Gen.Kernel.Skeleton
import proofs.«138278_j82824149336595_1_alg».proof.Proof.Gen.Kernel.Launch
import proofs.«138278_j82824149336595_1_alg».proof.Proof.Gen.Kernel.Points
import proofs.«138278_j82824149336595_1_alg».proof.Proof.Gen.Kernel.Frame
import proofs.«138278_j82824149336595_1_alg».proof.Proof.Gen.KernelIdeal
import proofs.«138278_j82824149336595_1_alg».proof.Proof.Gen.KernelIdeal.Skeleton
import proofs.«138278_j82824149336595_1_alg».proof.Proof.Gen.KernelIdeal.Launch
import proofs.«138278_j82824149336595_1_alg».proof.Proof.Gen.KernelIdeal.Points
import proofs.«138278_j82824149336595_1_alg».proof.Proof.Gen.KernelIdeal.Frame
import proofs.«138278_j82824149336595_1_alg».proof.Proof.Gen.ReferenceIdeal
import proofs.«138278_j82824149336595_1_alg».proof.Proof.Gen.Pre_finite_inputs
import proofs.«138278_j82824149336595_1_alg».proof.Proof.Gen.ReferenceIdeal.Run
import proofs.«138278_j82824149336595_1_alg».proof.Proof.Gen.ReferenceIdeal.Read
import proofs.«138278_j82824149336595_1_alg».proof.Proof.GcnRef
import proofs.«138278_j82824149336595_1_alg».proof.Proof.GcnKernelRun
import proofs.«138278_j82824149336595_1_alg».proof.Proof.GcnFold
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run's post, without the result. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with `Cert.Gcn.net` of the arguments in their result buffer: the kernel
    program by the walk through its six segments, the reference by its stages; the arguments agree. -/
theorem algebraic : Cert.algebraic_KernelIdeal_ReferenceIdeal := by
  intro m ρ m' ρ' _ hagree
  refine ⟨fun c => Cert.Gcn.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.Gcn.Fold.result_net m ρ c), (h c).2⟩)
      (Cert.Gcn.KernelRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.Gcn.Ref.result_net, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
